-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : IVec S2x800000 32) (main_arg2 : FVec F S256x256 .f32) (main_arg3 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S2000x256 : Shape := ⟨2, ![2000, 256]⟩

abbrev nBuf : Space → Nat
  | .hbm => 27
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S50000x256, .bf16⟩
  | .hbm, ⟨5, _⟩ => ⟨S256x256, .bf16⟩
  | .hbm, ⟨6, _⟩ => ⟨S256x256, .bf16⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .bf16⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S50000x256, .bf16⟩
  | .hbm, ⟨26, _⟩ => ⟨S50000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x256, .bf16⟩
  | .local _ .vmem, ⟨5, _⟩ => ⟨S256x256, .bf16⟩
  | .local _ .vmem, ⟨6, _⟩ => ⟨S2000x256, .f32⟩
  | .local _ .vmem, ⟨7, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .bf16 = 32 ∨ (Rect.block (s := S50000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩

abbrev nBuf : Space → Nat
  | .hbm => 27
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S50000x256, .f32⟩
  | .hbm, ⟨5, _⟩ => ⟨S50000x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.FiniteInputs.lean ====
/-
  From "every float input is finite" to real numbers.

  The precondition compares the absolute value of every entry of the three float inputs with +∞ and asks that all
  comparisons hold. Over the extended reals `|x| < +∞` leaves exactly the real numbers, so under the precondition each
  float input is the image of a real-valued array.
-/
import proofs.«162693_j2259152797811_2_alg».proof.Pre_finite_inputs
import Idealize.ShloMosaic.Lib.ReduceAll
import Idealize.ShloMosaic.Lib.ValueIdx
import Idealize.ShloMosaic.PureOps.Ideal.Laws

noncomputable section

namespace Cert.GraphConv.Finite

open Idealize.ShloMosaic Idealize.ShloMosaic.ValueIdx Cert.Pre_finite_inputs

/-- An extended real whose absolute value is below +∞ is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = (⊤ : EReal) := by simp [Ideal.ofBits, Ideal.ieee]
  rw [Ideal.cmpf_def, Ideal.ofBits_def, hinf] at h
  induction x using EReal.rec with
  | bot => exact absurd h (by simp [Ideal.cmp, Ideal.hostAbsf_def, Ideal.absf_def])
  | coe r => exact ⟨r, rfl⟩
  | top => exact absurd h (by simp [Ideal.cmp, Ideal.hostAbsf_def, Ideal.absf_def])

variable [Facts]

instance : Subsingleton S_.Idx := ⟨fun a b => funext fun d => d.elim0⟩

/-- Under the precondition the three float inputs hold real numbers only. -/
theorem reals_of_pre (a0 : FVec Ideal S50000x256 .f32) (a1 : IVec S2x800000 32) (a2 a3 : FVec Ideal S256x256 .f32)
    (h : fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h' := congrFun h ix0
  dsimp only [fn] at h'
  obtain ⟨h01, h3⟩ := IntOp.andi_eq_one.mp h'
  obtain ⟨h0, h2⟩ := IntOp.andi_eq_one.mp h01
  refine ⟨fun i => ?_, fun i => ?_, fun i => ?_⟩
  · exact real_of_abs_lt_top _ (Host.reduce_andi_all _ _ _ _ _ h0 i)
  · exact real_of_abs_lt_top _ (Host.reduce_andi_all _ _ _ _ _ h2 i)
  · exact real_of_abs_lt_top _ (Host.reduce_andi_all _ _ _ _ _ h3 i)

end Cert.GraphConv.Finite

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.KernelBlock.lean ====
/-
  What one grid step stores, read at one entry.

  A step holds a block of 2000 rows of the features `x`, the same 2000 rows of the aggregated features `a`, and both
  weight matrices whole. It stores `max (x · w0 + a · w1) 0`: at row `p` and column `q` of the block,

      max (∑ₖ x (p, k) · w0 (k, q) + ∑ₖ a (p, k) · w1 (k, q)) 0 ,

  both products into a zero accumulator, so plain sums over the extended reals.
-/
import proofs.«162693_j2259152797811_2_alg».proof.Proof.Gen.KernelIdeal.Skeleton
import proofs.«162693_j2259152797811_2_alg».proof.Proof.LibPlainProduct
import Idealize.ShloMosaic.Lib.Pipeline.Value
import Idealize.ShloMosaic.Lib.ValueIdx

noncomputable section

open scoped BigOperators

namespace Cert.GraphConv.Block

open Idealize.ShloMosaic Idealize.ShloMosaic.ValueIdx Cert.KernelIdeal Cert.KernelIdeal.Gen

/-- THE STORED BLOCK AT `(p, q)`. -/
theorem stored_apply (x : Vec Ideal S2000x256 .bf16) (w0 : Vec Ideal S256x256 .bf16) (a : Vec Ideal S2000x256 .bf16)
    (w1 : Vec Ideal S256x256 .bf16) (p : Fin 2000) (q : Fin 256) :
    k0_pay1 (F := Ideal) x w0 a w1 (ix2 p q)
      = max ((∑ k : Fin 256, x (ix2 p k) * w0 (ix2 k q)) + ∑ k : Fin 256, a (ix2 p k) * w1 (ix2 k q)) 0 := by
  have h1 := Cert.PlainProduct.matmul_nn_apply (m := 2000) (n := 256) (k := 256) (φ₁ := .bf16) (φ₂ := .bf16)
    Facts₀.dot_S2000x256_S256x256_S2000x256_1_0_0_1_n_n_wf none x w0 p q
  have h2 := Cert.PlainProduct.matmul_nn_apply (m := 2000) (n := 256) (k := 256) (φ₁ := .bf16) (φ₂ := .bf16)
    Facts₀.dot_S2000x256_S256x256_S2000x256_1_0_0_1_n_n_wf none a w1 p q
  unfold k0_pay1
  rw [maximumf_apply, addf_apply, broadcast_apply, shapeCast_self, shapeCast_self, shapeCast_self, shapeCast_self]
  refine congrArg₂ max (congrArg₂ (· + ·) h1 h2) ?_
  exact Ideal.ofBits_zero_f32

end Cert.GraphConv.Block

end
-- ==== Proof.KernelValue.lean ====
/-
  The kernel's result array, from its 25 blocks.

  Grid step `t` reads rows `2000 t … 2000 t + 1999` of the features and of the aggregated features, reads both weight
  matrices whole, and writes the same 2000 rows of the result. Entry `(p, q)` of what it writes is the stored block's
  (`Block.stored_apply`), so each step writes its rows of ONE array-wide function: at `(r, q)`,

      max (∑ₖ A (r, k) · W0 (k, q) + ∑ₖ B (r, k) · W1 (k, q)) 0

  of the four arrays the region finds. The 25 blocks tile the 50000 rows, so the result array is that function.
-/
import proofs.«162693_j2259152797811_2_alg».proof.Proof.Gen.KernelIdeal.Value
import proofs.«162693_j2259152797811_2_alg».proof.Proof.KernelBlock
import Idealize.ShloMosaic.Lib.Pipeline.Value
import Idealize.ShloMosaic.Lib.ValueIdx

noncomputable section

open scoped BigOperators

namespace Cert.GraphConv.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Entry `(r, q)` of the dense stage over whole arrays. -/
def denseAt (A B : S50000x256.Idx → EReal) (W0 W1 : S256x256.Idx → EReal) (r : Fin 50000) (q : Fin 256) : EReal :=
  max ((∑ k : Fin 256, A (ix2 r k) * W0 (ix2 k q)) + ∑ k : Fin 256, B (ix2 r k) * W1 (ix2 k q)) 0

/-- The dense stage as an array. -/
def dense (A B : S50000x256.Idx → EReal) (W0 W1 : S256x256.Idx → EReal) : S50000x256.Idx → EReal :=
  fun i => denseAt A B W0 W1 (i 0) (i 1)

theorem hz : (![0, 0] : Fin 2 → Nat) = fun _ => 0 := funext fun a => by fin_cases a <;> rfl

/-- The index maps over the 25 grid steps: the row windows (features, aggregated features, result) sit at block `t`
    of the rows and block 0 of the columns; the weight windows at block 0 of both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem step_lt (t : Fin cfg0.N) : t.val < 25 := lt_of_lt_of_eq t.isLt N_0

/-- Row `p` of step `t`'s block is row `2000 t + p` of the array. -/
def row (t : Fin cfg0.N) (p : Fin 2000) : Fin 50000 := ⟨t.val * 2000 + p.val, by have := step_lt t; omega⟩

/-- Where an entry of a row block sits in its array, -/
theorem emb0 (t : Fin cfg0.N) (p : Fin 2000) (k : Fin 256) :
    ((cfg0.win 0).blk t).view.emb (ix2 p k) = ix2 (row t p) k := by
  obtain ⟨e00, e01, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega
theorem emb1 (t : Fin cfg0.N) (p : Fin 2000) (k : Fin 256) :
    ((cfg0.win 1).blk t).view.emb (ix2 p k) = ix2 (row t p) k := by
  obtain ⟨-, -, e10, e11, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 256 + 1 * k.val = k.val; omega
theorem emb4 (t : Fin cfg0.N) (p : Fin 2000) (q : Fin 256) :
    ((cfg0.win 4).blk t).view.emb (ix2 p q) = ix2 (row t p) q := by
  obtain ⟨-, -, -, -, -, -, -, -, e40, e41⟩ := idx_facts t
  funext a; apply Fin.ext
  match a with
  | ⟨0, _⟩ => show win0_4.index t (0 : Fin 2) * 2000 + 1 * p.val = t.val * 2000 + p.val; omega
  | ⟨1, _⟩ => show win0_4.index t (1 : Fin 2) * 256 + 1 * q.val = q.val; omega
/-- and an entry of a weight block: in place. -/
theorem emb2 (t : Fin cfg0.N) (k q : Fin 256) : ((cfg0.win 2).blk t).view.emb (ix2 k q) = ix2 k q := by
  obtain ⟨-, -, -, -, e20, e21, -⟩ := idx_facts t
  funext a; apply Fin.ext
  match a with
  | ⟨0, _⟩ => show win0_2.index t (0 : Fin 2) * 256 + 1 * k.val = k.val; omega
  | ⟨1, _⟩ => show win0_2.index t (1 : Fin 2) * 256 + 1 * q.val = q.val; omega
theorem emb3 (t : Fin cfg0.N) (k q : Fin 256) : ((cfg0.win 3).blk t).view.emb (ix2 k q) = ix2 k q := by
  obtain ⟨-, -, -, -, -, -, e30, e31, -⟩ := idx_facts t
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- A block read at an entry is the array read where the entry sits, whatever the arrays hold (the arrays' contents
    stay a variable here: what the region finds in them is opened elsewhere, never inside a block read). -/
theorem read0_any (c : Dev nD) (Vc : (b : Ref sig .tc) → Buf (Elt Ideal) ((c : Thread nD τ).loc b))
    (t : Fin cfg0.N) (p : Fin 2000) (k : Fin 256) :
    ((cfg0.win 0).blk t).view.read (Elt Ideal) (Vc (Pipeline.arrRef spec0 0)) (ix2 p k)
      = Vc main_v0 (((cfg0.win 0).blk t).view.emb (ix2 p k)) := rfl
theorem read1_any (c : Dev nD) (Vc : (b : Ref sig .tc) → Buf (Elt Ideal) ((c : Thread nD τ).loc b))
    (t : Fin cfg0.N) (p : Fin 2000) (k : Fin 256) :
    ((cfg0.win 1).blk t).view.read (Elt Ideal) (Vc (Pipeline.arrRef spec0 1)) (ix2 p k)
      = Vc main_v18 (((cfg0.win 1).blk t).view.emb (ix2 p k)) := rfl
theorem read2_any (c : Dev nD) (Vc : (b : Ref sig .tc) → Buf (Elt Ideal) ((c : Thread nD τ).loc b))
    (t : Fin cfg0.N) (k q : Fin 256) :
    ((cfg0.win 2).blk t).view.read (Elt Ideal) (Vc (Pipeline.arrRef spec0 2)) (ix2 k q)
      = Vc main_v1 (((cfg0.win 2).blk t).view.emb (ix2 k q)) := rfl
theorem read3_any (c : Dev nD) (Vc : (b : Ref sig .tc) → Buf (Elt Ideal) ((c : Thread nD τ).loc b))
    (t : Fin cfg0.N) (k q : Fin 256) :
    ((cfg0.win 3).blk t).view.read (Elt Ideal) (Vc (Pipeline.arrRef spec0 3)) (ix2 k q)
      = Vc main_v2 (((cfg0.win 3).blk t).view.emb (ix2 k q)) := rfl

/-- The blocks a step reads, entry by entry, off the arrays the region finds. -/
theorem read0 (c : Dev nD) (t : Fin cfg0.N) (p : Fin 2000) (k : Fin 256) :
    iblk m c 0 t (ix2 p k) = V m c main_v0 (ix2 (row t p) k) := by
  unfold iblk
  refine (read0_any c (V m c) t p k).trans ?_
  rw [emb0]
theorem read1 (c : Dev nD) (t : Fin cfg0.N) (p : Fin 2000) (k : Fin 256) :
    iblk m c 1 t (ix2 p k) = V m c main_v18 (ix2 (row t p) k) := by
  unfold iblk
  refine (read1_any c (V m c) t p k).trans ?_
  rw [emb1]
theorem read2 (c : Dev nD) (t : Fin cfg0.N) (k q : Fin 256) :
    iblk m c 2 t (ix2 k q) = V m c main_v1 (ix2 k q) := by
  unfold iblk
  refine (read2_any c (V m c) t k q).trans ?_
  rw [emb2]
theorem read3 (c : Dev nD) (t : Fin cfg0.N) (k q : Fin 256) :
    iblk m c 3 t (ix2 k q) = V m c main_v2 (ix2 k q) := by
  unfold iblk
  refine (read3_any c (V m c) t k q).trans ?_
  rw [emb3]

/-- WHAT STEP `t` WRITES BACK is block `t` of the dense stage of the arrays the region finds. -/
theorem flushed_eq (c : Dev nD) (t : Fin cfg0.N) :
    (dats m 0 c).flushed 4 t = ((cfg0.win 4).blk t).view.read (Elt Ideal)
      (dense (V m c main_v0) (V m c main_v18) (V m c main_v1) (V m c main_v2)) := by
  rw [Cert.KernelIdeal.Value.flushed4]
  unfold out0_4
  rw [View.canon_unit_zero hz]
  simp only [View.ld_unit_zero (S := S2000x256) hz, View.ld_unit_zero (S := S256x256) hz]
  funext j
  obtain ⟨p, q, rfl⟩ : ∃ (p : Fin 2000) (q : Fin 256), j = ix2 p q := ⟨j 0, j 1, eq_ix2 j⟩
  show k0_pay1 (iblk m c 0 t) (iblk m c 2 t) (iblk m c 1 t) (iblk m c 3 t) (ix2 p q)
    = dense (V m c main_v0) (V m c main_v18) (V m c main_v1) (V m c main_v2) (((cfg0.win 4).blk t).view.emb (ix2 p q))
  rw [emb4]
  refine (Block.stored_apply (iblk m c 0 t) (iblk m c 2 t) (iblk m c 1 t) (iblk m c 3 t) p q).trans ?_
  show _ = denseAt (V m c main_v0) (V m c main_v18) (V m c main_v1) (V m c main_v2) (row t p) q
  unfold denseAt
  simp only [read0, read1, read2, read3]

/-- An index of the array is in step `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v19).slice (win0_4.rect t)).set ↔ _
  rw [View.set_slice_whole, Rect.mem_set_unit]
  exact Iff.rfl

/-- Every row is in the block of step `row / 2000`. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨-, -, -, -, -, -, -, -, e40, e41⟩ := idx_facts t
  have ht : t.val = (i 0).val / 2000 := rfl
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- THE RESULT ARRAY after the run: the dense stage of the arrays the region finds. -/
theorem final (c : Dev nD) :
    (dats m 0 c).arrAt 4 cfg0.N = dense (V m c main_v0) (V m c main_v18) (V m c main_v1) (V m c main_v2) :=
  (dats m 0 c).arrAt_eq_of_cover 4 _ (fun t _ => flushed_eq m c t) cover

end Cert.GraphConv.Kernel

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.GraphConvSpec.lean ====
/-
  The graph convolution as one function of its inputs, and the law that joins its two arrangements.

  With `X : [50000, 256]` the vertex features, `W0, W1 : [256, 256]` the two weight matrices, and two columns of integers
  `D, S : [800000, 1]` (per edge, the vertex it adds into and the vertex it reads), entry `(p, q)` of the result is

      max (∑ₖ X (p, k) · W0 (k, q)  +  ∑_{e : D names p} ∑ₖ X (row S e, k) · W1 (k, q))  0 .

  One arrangement multiplies every vertex by `W1` first and then adds, per vertex, the products' rows of its edges; the
  other adds the edges' feature rows first and multiplies the sum by `W1` once. The two agree because a finite sum of
  REAL numbers times a real is the sum of the products, and two finite sums may be exchanged — which is why the entries
  of `X` and `W1` have to be real: over the extended reals `(a + b) · c = a · c + b · c` fails at infinities.
-/
import Idealize.ShloMosaic.Lib.ValueIdx
import Idealize.ShloMosaic.PureOps.Ideal.Laws
import proofs.«162693_j2259152797811_2_alg».proof.Proof.LibRowGatherScatter

noncomputable section

open scoped BigOperators

namespace Cert.GraphConv

open Idealize.ShloMosaic Idealize.ShloMosaic.ValueIdx Cert.RowGatherScatter

/-! ## Sums of reals inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For real families `x e k` and `w k`: adding over `e` first and then contracting `k` against `w` is
    contracting each `e` against `w` and then adding. -/
theorem sum_mul_exchange {ι κ : Type*} [Fintype κ] (H : Finset ι) (x : ι → κ → EReal) (w : κ → EReal)
    (hx : ∀ e k, ∃ r : ℝ, x e k = (r : EReal)) (hw : ∀ k, ∃ r : ℝ, w k = (r : EReal)) :
    ∑ k, (∑ e ∈ H, x e k) * w k = ∑ e ∈ H, ∑ k, x e k * w k := by
  choose xr hx using hx
  choose wr hw using hw
  simp only [hx, hw, ← coe_sum, ← EReal.coe_mul]
  refine congrArg _ ?_
  rw [Finset.sum_comm]
  refine Finset.sum_congr rfl fun k _ => ?_
  rw [Finset.sum_mul]

/-! ## The specification -/

abbrev SX : Shape := ⟨2, ![50000, 256]⟩
abbrev SW : Shape := ⟨2, ![256, 256]⟩
abbrev SI : Shape := ⟨2, ![800000, 1]⟩

/-- The vertex that edge `e` reads: its integer in `S`, read signed and brought into `[0, 49999]`. -/
abbrev src (S : IVec SI 32) (e : Fin 800000) : Fin 50000 := rowOf (N := 50000) (by decide) S e

/-- Entry `(p, q)` of the graph convolution. -/
def Gat (X : SX.Idx → EReal) (D S : IVec SI 32) (W0 W1 : SW.Idx → EReal) (p : Fin 50000) (q : Fin 256) : EReal :=
  max ((∑ k : Fin 256, X (ix2 p k) * W0 (ix2 k q))
    + ∑ e ∈ hits (N := 50000) D p, ∑ k : Fin 256, X (ix2 (src S e) k) * W1 (ix2 k q)) 0

/-- The graph convolution as an array. -/
def G (X : SX.Idx → EReal) (D S : IVec SI 32) (W0 W1 : SW.Idx → EReal) : SX.Idx → EReal :=
  fun i => Gat X D S W0 W1 (i 0) (i 1)

/-- The arrangement that adds the edges' feature rows first (into zero) and multiplies the sums by `W1` once is the
    specification, when `X` and `W1` hold real numbers. -/
theorem aggregate_first_eq (X : SX.Idx → EReal) (D S : IVec SI 32) (W0 W1 : SW.Idx → EReal)
    (hX : ∀ i, ∃ r : ℝ, X i = (r : EReal)) (hW1 : ∀ i, ∃ r : ℝ, W1 i = (r : EReal)) (p : Fin 50000) (q : Fin 256) :
    max ((∑ k : Fin 256, X (ix2 p k) * W0 (ix2 k q))
      + ∑ k : Fin 256, ((0 : EReal) + ∑ e ∈ hits (N := 50000) D p, X (ix2 (src S e) k)) * W1 (ix2 k q)) 0
      = Gat X D S W0 W1 p q := by
  unfold Gat
  simp only [zero_add]
  rw [sum_mul_exchange (hits (N := 50000) D p) (fun e k => X (ix2 (src S e) k)) (fun k => W1 (ix2 k q))
    (fun e k => hX _) (fun k => hW1 _)]

end Cert.GraphConv

end
-- ==== Proof.KernelInputs.lean ====
/-
  The kernel's result as the graph convolution of the inputs.

  Before the grid runs, the host side has prepared the four arrays the steps read: the features and both weight matrices
  unchanged in value (a change of float format is the identity on the extended reals), and the AGGREGATED features: into
  zeros, for every edge, the feature row of the edge's source vertex added onto the row of its destination vertex. So
  entry `(r, k)` of the aggregated features is `0 + ∑_{e into r} X (src e, k)`, and the dense stage over these four arrays
  is the arrangement "add first, multiply by `W1` once" — the specification, when `X` and `W1` are real.
-/
import proofs.«162693_j2259152797811_2_alg».proof.Proof.Gen.KernelIdeal.Frame
import proofs.«162693_j2259152797811_2_alg».proof.Proof.KernelValue
import proofs.«162693_j2259152797811_2_alg».proof.Proof.GraphConvSpec
import Idealize.ShloMosaic.Lib.StableHlo.Run

noncomputable section

open scoped BigOperators

namespace Cert.GraphConv.Kernel

open Idealize.ShloMosaic Idealize.ShloMosaic.TcCoe Idealize.ShloMosaic.ValueIdx Idealize.SL.Sem
open Idealize.ShloMosaic.StableHlo
open Cert.KernelIdeal Cert.KernelIdeal.Gen Cert.RowGatherScatter Cert.GraphConv

variable (m : (ℓ : Loc nD τ sig) → Buf (Elt Ideal) ℓ)

/-- The destination column: row 0 of the edge list, as an `[800000, 1]` column. -/
def dstCol (e : IVec S2x800000 32) : IVec S800000x1 32 :=
  broadcastInDim S800000x1 ![0] Facts₀.bcast_S800000_S800000x1_0
    (shapeCast S800000 (extractStridedSlice S1x800000 ![0, 0] e Facts₀.slices_S2x800000_S1x800000_0_0)
      Facts₀.shapeCasts_S1x800000_S800000)

/-- The source column: row 1 of the edge list, a negative entry counted from the end (`+ 50000`), as a column. -/
def srcCol (e : IVec S2x800000 32) : IVec S800000x1 32 :=
  broadcastInDim S800000x1 ![0] Facts₀.bcast_S800000_S800000x1_0
    (select
      (cmpi .slt
        (shapeCast S800000 (extractStridedSlice S1x800000 ![1, 0] e Facts₀.slices_S2x800000_S1x800000_1_0)
          Facts₀.shapeCasts_S1x800000_S800000)
        (broadcastInDim S800000 ![] Facts₀.bcast_S_S800000 (constantI S_ 32 0#32)))
      (addi
        (shapeCast S800000 (extractStridedSlice S1x800000 ![1, 0] e Facts₀.slices_S2x800000_S1x800000_1_0)
          Facts₀.shapeCasts_S1x800000_S800000)
        (broadcastInDim S800000 ![] Facts₀.bcast_S_S800000 (constantI S_ 32 50000#32)))
      (shapeCast S800000 (extractStridedSlice S1x800000 ![1, 0] e Facts₀.slices_S2x800000_S1x800000_1_0)
        Facts₀.shapeCasts_S1x800000_S800000))

/-- The aggregated features as the host side computes them from the inputs. -/
def aggregated (X : FVec Ideal S50000x256 .f32) (e : IVec S2x800000 32) : FVec Ideal S50000x256 .bf16 :=
  truncf .bf16
    (Host.scatterAdd scatter_S50000x256_S800000x1_S800000x256_1_0_0_1
      (broadcastInDim S50000x256 ![] Facts₀.bcast_S_S50000x256 (constant (F := Ideal) S_ .f32 0x00000000#32))
      (dstCol e)
      (extf .f32
        (Host.gather gather_S50000x256_S800000x1_S800000x256_1_0_n_n_0_1_1256
          (truncf .bf16 X Facts₀.bitsLt_bf16_f32 : FVec Ideal S50000x256 .bf16) (srcCol e))
        Facts₀.bitsLt_bf16_f32 : FVec Ideal S800000x256 .f32))
    Facts₀.bitsLt_bf16_f32

/-! ## What the region finds in the four arrays its steps read -/

theorem found_features (c : Dev nD) :
    (V m c main_v0 : FVec Ideal S50000x256 .bf16)
      = (truncf .bf16 (m ((c : Thread nD τ).loc main_arg0) : FVec Ideal S50000x256 .f32) Facts₀.bitsLt_bf16_f32 :
          FVec Ideal S50000x256 .bf16) := by
  dsimp only [Gen.V, Gen.hostOps0]; after_results <;> rfl

theorem found_w0 (c : Dev nD) :
    (V m c main_v1 : FVec Ideal S256x256 .bf16)
      = (truncf .bf16 (m ((c : Thread nD τ).loc main_arg2) : FVec Ideal S256x256 .f32) Facts₀.bitsLt_bf16_f32 :
          FVec Ideal S256x256 .bf16) := by
  dsimp only [Gen.V, Gen.hostOps0]; after_results <;> rfl

theorem found_w1 (c : Dev nD) :
    (V m c main_v2 : FVec Ideal S256x256 .bf16)
      = (truncf .bf16 (m ((c : Thread nD τ).loc main_arg3) : FVec Ideal S256x256 .f32) Facts₀.bitsLt_bf16_f32 :
          FVec Ideal S256x256 .bf16) := by
  dsimp only [Gen.V, Gen.hostOps0]; after_results <;> rfl

theorem found_aggregated (c : Dev nD) :
    (V m c main_v18 : FVec Ideal S50000x256 .bf16)
      = aggregated (m ((c : Thread nD τ).loc main_arg0)) (m ((c : Thread nD τ).loc main_arg1)) := by
  dsimp only [Gen.V, Gen.hostOps0]; after_results <;> rfl

/-! ## The aggregated features at an entry -/

/-- Entry `(r, k)`: zero plus, over the edges into `r`, entry `k` of their source vertices' feature rows. -/
theorem aggregated_apply (X : FVec Ideal S50000x256 .f32) (e : IVec S2x800000 32) (r : Fin 50000) (k : Fin 256) :
    aggregated X e (ix2 r k)
      = (0 : EReal) + ∑ j ∈ hits (N := 50000) (dstCol e) r, X (ix2 (src (srcCol e) j) k) := by
  unfold aggregated
  rw [truncf_apply]
  have h := scatterAdd_rows_apply (N := 50000) (E := 800000) (C := 256)
    Facts₀.scatter_S50000x256_S800000x1_S800000x256_1_0_0_1_wf
    (broadcastInDim S50000x256 ![] Facts₀.bcast_S_S50000x256 (constant (F := Ideal) S_ .f32 0x00000000#32))
    (dstCol e)
    (extf .f32
      (Host.gather gather_S50000x256_S800000x1_S800000x256_1_0_n_n_0_1_1256
        (truncf .bf16 X Facts₀.bitsLt_bf16_f32 : FVec Ideal S50000x256 .bf16) (srcCol e))
      Facts₀.bitsLt_bf16_f32 : FVec Ideal S800000x256 .f32) r k
  refine h.trans ?_
  refine congrArg₂ (· + ·) ?_ (Finset.sum_congr rfl fun j _ => ?_)
  · show Ideal.ofBits .f32 0x00000000#32 = 0
    exact Ideal.ofBits_zero_f32
  · rw [extf_apply]
    exact gather_rows_apply (N := 50000) (E := 800000) (C := 256) (by decide)
      Facts₀.gather_S50000x256_S800000x1_S800000x256_1_0_n_n_0_1_1256_wf
      (truncf .bf16 X Facts₀.bitsLt_bf16_f32 : FVec Ideal S50000x256 .bf16) (srcCol e) j k

/-! ## The dense stage over what the region finds is the specification -/

theorem dense_found_eq (c : Dev nD)
    (hX : ∀ i, ∃ r : ℝ, m ((c : Thread nD τ).loc main_arg0) i = (r : EReal))
    (hW1 : ∀ i, ∃ r : ℝ, m ((c : Thread nD τ).loc main_arg3) i = (r : EReal)) :
    dense (V m c main_v0) (V m c main_v18) (V m c main_v1) (V m c main_v2)
      = G (m ((c : Thread nD τ).loc main_arg0)) (dstCol (m ((c : Thread nD τ).loc main_arg1)))
          (srcCol (m ((c : Thread nD τ).loc main_arg1))) (m ((c : Thread nD τ).loc main_arg2))
          (m ((c : Thread nD τ).loc main_arg3)) := by
  rw [found_features, found_aggregated, found_w0, found_w1]
  funext i
  obtain ⟨p, q, rfl⟩ : ∃ (p : Fin 50000) (q : Fin 256), i = ix2 p q := ⟨i 0, i 1, eq_ix2 i⟩
  show denseAt _ _ _ _ p q = Gat _ _ _ _ _ p q
  unfold denseAt
  simp only [truncf_apply, aggregated_apply]
  exact aggregate_first_eq _ _ _ _ _ hX hW1 p q

end Cert.GraphConv.Kernel

end
-- ==== Proof.ReferenceValue.lean ====
/-
  The reference computes the graph convolution.

  Its stages, read at entry `(p, q)`: both projections `X · W0` and `X · W1` are plain sums over the shared axis; the rows
  of `X · W1` are taken at the edges' source vertices; those rows are added, into zeros, at the edges' destination
  vertices; the two terms are added and the maximum with zero is taken. Entry by entry that is the specification, with
  no algebra needed: the reference already multiplies by `W1` before it adds.
-/
import proofs.«162693_j2259152797811_2_alg».proof.Proof.Gen.ReferenceIdeal.Read
import proofs.«162693_j2259152797811_2_alg».proof.Proof.GraphConvSpec

noncomputable section

open scoped BigOperators

namespace Cert.GraphConv.Ref

open Idealize.ShloMosaic Idealize.ShloMosaic.ValueIdx Cert.RowGatherScatter Cert.GraphConv
open Cert.ReferenceIdeal Cert.ReferenceIdeal.Gen Cert.ReferenceIdeal.Read

/-- The projection by `W0` reads row `p` of the features and column `q` of the weights. -/
theorem lidx0 (p : Fin 50000) (q k : Fin 256) : lidx_main_v0 (ix2 p q) k = ix2 p k :=
  funext fun a => Fin.ext (by match a with | ⟨0, _⟩ => rfl | ⟨1, _⟩ => rfl)
theorem ridx0 (p : Fin 50000) (q k : Fin 256) : ridx_main_v0 (ix2 p q) k = ix2 k q :=
  funext fun a => Fin.ext (by match a with | ⟨0, _⟩ => rfl | ⟨1, _⟩ => rfl)
/-- So does the projection by `W1`. -/
theorem lidx1 (p : Fin 50000) (q k : Fin 256) : lidx_main_v1 (ix2 p q) k = ix2 p k :=
  funext fun a => Fin.ext (by match a with | ⟨0, _⟩ => rfl | ⟨1, _⟩ => rfl)
theorem ridx1 (p : Fin 50000) (q k : Fin 256) : ridx_main_v1 (ix2 p q) k = ix2 k q :=
  funext fun a => Fin.ext (by match a with | ⟨0, _⟩ => rfl | ⟨1, _⟩ => rfl)

/-- The rows of `X · W1` taken at the source vertices, at `(e, q)`: row `src e` of the features against column `q`. -/
theorem taken_apply (x0 : FVec Ideal S50000x256 .f32) (x1 : IVec S2x800000 32) (x3 : FVec Ideal S256x256 .f32)
    (e : Fin 800000) (q : Fin 256) :
    val_main_v12 (F := Ideal) x0 x1 x3 (ix2 e q)
      = ∑ k : Fin 256, x0 (ix2 (src (val_main_v11 (F := Ideal) x1) e) k) * x3 (ix2 k q) := by
  have h := gather_rows_apply (N := 50000) (E := 800000) (C := 256) (by decide)
    Facts₀.gather_S50000x256_S800000x1_S800000x256_1_0_n_n_0_1_1256_wf
    (val_main_v1 (F := Ideal) x0 x3) (val_main_v11 (F := Ideal) x1) e q
  refine h.trans ?_
  rw [val_main_v1_apply]
  simp only [lidx1, ridx1]

/-- The neighbours' term at `(p, q)`: zero plus, over the edges into `p`, their taken rows' entry `q`. -/
theorem added_apply (x0 : FVec Ideal S50000x256 .f32) (x1 : IVec S2x800000 32) (x3 : FVec Ideal S256x256 .f32)
    (p : Fin 50000) (q : Fin 256) :
    val_main_v15 (F := Ideal) x0 x1 x3 (ix2 p q)
      = ∑ e ∈ hits (N := 50000) (val_main_v14 (F := Ideal) x1) p,
          ∑ k : Fin 256, x0 (ix2 (src (val_main_v11 (F := Ideal) x1) e) k) * x3 (ix2 k q) := by
  have h := scatterAdd_rows_apply (N := 50000) (E := 800000) (C := 256)
    Facts₀.scatter_S50000x256_S800000x1_S800000x256_1_0_0_1_wf
    (val_main_v13 (F := Ideal)) (val_main_v14 (F := Ideal) x1) (val_main_v12 (F := Ideal) x0 x1 x3) p q
  refine h.trans ?_
  rw [val_main_v13_apply, val_main_cst_apply, Ideal.ofBits_def, Ideal.ofBits_zero_f32, zero_add]
  refine Finset.sum_congr rfl fun e _ => taken_apply x0 x1 x3 e q

/-- THE REFERENCE IS THE SPECIFICATION, at the destination column `D` and the source column `S` it builds from the
    edge list. -/
theorem result_eq (x0 : FVec Ideal S50000x256 .f32) (x1 : IVec S2x800000 32) (x2 x3 : FVec Ideal S256x256 .f32) :
    val_main_v17 (F := Ideal) x0 x1 x2 x3
      = G x0 (val_main_v14 (F := Ideal) x1) (val_main_v11 (F := Ideal) x1) x2 x3 := by
  funext i
  obtain ⟨p, q, rfl⟩ : ∃ (p : Fin 50000) (q : Fin 256), i = ix2 p q := ⟨i 0, i 1, eq_ix2 i⟩
  rw [val_main_v17_apply, val_main_v16_apply, val_main_v0_apply, added_apply,
    val_main_call0_v0_apply, val_main_call0_cst_apply, Ideal.ofBits_def, Ideal.ofBits_zero_f32]
  simp only [lidx0, ridx0, Ideal.addf_def, Ideal.maximumf_def]
  rfl

end Cert.GraphConv.Ref

end
-- ==== Proof.lean ====
/-
  A graph convolution, `relu (X · W0 + Σ_{edges j → i} X_j · W1)`, computed two ways.

  The kernel's program first adds, for every vertex, the feature rows of its in-neighbours (rows taken by index from `X`,
  added by index into zeros), and then one grid of 25 steps computes `max (X · W0 + A · W1) 0` on blocks of 2000 rows,
  `A` the aggregated rows. The reference multiplies `X` by `W1` first, takes and adds the PRODUCT's rows edge by edge, adds
  `X · W0` and takes the maximum with zero.

  Over the extended reals, with every format change the identity and both matrix products exact sums, the two results
  are equal entry by entry because `(Σ_e x_e) · w = Σ_e x_e · w` and two finite sums may be exchanged — a law of the REAL
  numbers, which is where the precondition (every float input finite) is used. The two programs build the same two
  index columns from the edge list and treat an index out of range alike (a source row is brought into range, a
  destination row out of range is dropped), so the columns stay two opaque functions of the edge list throughout.

  The modules: `LibRowGatherScatter` (rows taken / added by index, read at an entry), `GraphConvSpec` (the result as one
  function, and the law), `FiniteInputs` (the precondition gives real entries), `KernelBlock` / `KernelValue` /
  `KernelInputs` (the kernel's array is that function), `ReferenceValue` (so is the reference's).
-/
import proofs.«162693_j2259152797811_2_alg».proof.Defs
import proofs.«162693_j2259152797811_2_alg».proof.Proof.Gen.Kernel
import proofs.«162693_j2259152797811_2_alg».proof.Proof.Gen.Kernel.Skeleton
import proofs.«162693_j2259152797811_2_alg».proof.Proof.Gen.Kernel.Launch
import proofs.«162693_j2259152797811_2_alg».proof.Proof.Gen.Kernel.Points
import proofs.«162693_j2259152797811_2_alg».proof.Proof.Gen.Kernel.Frame
import proofs.«162693_j2259152797811_2_alg».proof.Proof.Gen.KernelIdeal
import proofs.«162693_j2259152797811_2_alg».proof.Proof.Gen.KernelIdeal.Skeleton
import proofs.«162693_j2259152797811_2_alg».proof.Proof.Gen.KernelIdeal.Launch
import proofs.«162693_j2259152797811_2_alg».proof.Proof.Gen.KernelIdeal.Points
import proofs.«162693_j2259152797811_2_alg».proof.Proof.Gen.KernelIdeal.Frame
import proofs.«162693_j2259152797811_2_alg».proof.Proof.Gen.ReferenceIdeal
import proofs.«162693_j2259152797811_2_alg».proof.Proof.Gen.Pre_finite_inputs
import proofs.«162693_j2259152797811_2_alg».proof.Proof.Gen.KernelIdeal.Value
import proofs.«162693_j2259152797811_2_alg».proof.Proof.Gen.ReferenceIdeal.Run
import proofs.«162693_j2259152797811_2_alg».proof.Proof.Gen.ReferenceIdeal.Read
import proofs.«162693_j2259152797811_2_alg».proof.Proof.FiniteInputs
import proofs.«162693_j2259152797811_2_alg».proof.Proof.KernelInputs
import proofs.«162693_j2259152797811_2_alg».proof.Proof.ReferenceValue
import Idealize.ShloMosaic.Adequacy
import Idealize.ShloMosaic.Init

noncomputable section

namespace Cert.Proof

open Idealize.ShloMosaic Idealize.ShloMosaic.TcCoe Idealize.SL.Sem

/-! ## The three programs run, and leave their arguments as they were -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-! ## The two index columns are the same functions of the edge list in both programs -/

theorem dst_agree (e : IVec Cert.ReferenceIdeal.S2x800000 32) :
    Cert.ReferenceIdeal.Read.val_main_v14 (F := Ideal) e = Cert.GraphConv.Kernel.dstCol e := rfl

theorem src_agree (e : IVec Cert.ReferenceIdeal.S2x800000 32) :
    Cert.ReferenceIdeal.Read.val_main_v11 (F := Ideal) e = Cert.GraphConv.Kernel.srcCol e := rfl

/-! ## Equal results -/

/-- Both programs end with the graph convolution of the (agreeing) inputs in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GraphConv.G (m ((c : Thread Cert.KernelIdeal.nD Cert.KernelIdeal.τ).loc Cert.KernelIdeal.main_arg0))
      (Cert.GraphConv.Kernel.dstCol (m ((c : Thread Cert.KernelIdeal.nD Cert.KernelIdeal.τ).loc Cert.KernelIdeal.main_arg1)))
      (Cert.GraphConv.Kernel.srcCol (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks (F := Ideal) m ρ)
    obtain ⟨hX, -, hW1⟩ := Cert.GraphConv.Finite.reals_of_pre _ _ _ _ (hpre c)
    exact (Cert.GraphConv.Kernel.final m c).trans (Cert.GraphConv.Kernel.dense_found_eq m c hX hW1)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    refine (Cert.ReferenceIdeal.Read.val_main_v17_eq _ _ _ _).trans ?_
    refine (Cert.GraphConv.Ref.result_eq _ _ _ _).trans ?_
    rw [dst_agree, src_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
